-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S2x458752 : Shape := ⟨2, ![2, 458752]⟩
abbrev S458752 : Shape := ⟨1, ![458752]⟩
abbrev S65536 : Shape := ⟨1, ![65536]⟩
abbrev S931x128 : Shape := ⟨2, ![931, 128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S931x128 : S_.BroadcastsInDim S931x128 (![] : Fin 0 → Fin S931x128.rank)
  reducesTo_S931x128_S_d0_1 : S931x128.ReducesTo [0, 1] S_

variable [Facts]

def fn {F : FTy → Type} [FloatOps F] (main_arg0 : FVec F S65536x128 .f32) (main_arg1 : IVec S2x458752 32) (main_arg2 : IVec S458752 32) (main_arg3 : IVec S65536 32) (main_arg4 : FVec F S931x128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S931x128 .f32 := Host.absf main_arg4
  let main_cst_0 : FVec F S_ .f32 := constant S_ .f32 0x7F800000#32
  let main_v5 : FVec F S931x128 .f32 := broadcastInDim S931x128 ![] bcast_S_S931x128 main_cst_0
  let main_v6 : IVec S931x128 1 := cmpf .olt main_v4 main_v5
  let main_c_1 : IVec S_ 1 := constantI S_ 1 1#1
  let main_v7 : IVec S_ 1 := (fun x v => Host.reduce IntOp.andi x v reducesTo_S931x128_S_d0_1 h_S_) main_v6 main_c_1
  let main_v8 : IVec S_ 1 := andi main_v3 main_v7
  main_v8
-- ==== Kernel.lean ====
abbrev S65536x128 : Shape := ⟨2, ![65536, 128]⟩
abbrev S2x458752 : Shape := ⟨2, ![2, 458752]⟩
abbrev S458752 : Shape := ⟨1, ![458752]⟩
abbrev S65536 : Shape := ⟨1, ![65536]⟩
abbrev S931x128 : Shape := ⟨2, ![931, 128]⟩
abbrev S1x458752 : Shape := ⟨2, ![1, 458752]⟩
abbrev S65536x1 : Shape := ⟨2, ![65536, 1]⟩
abbrev S1x5 : Shape := ⟨2, ![1, 5]⟩
abbrev S65536x5 : Shape := ⟨2, ![65536, 5]⟩
abbrev S65536x133 : Shape := ⟨2, ![65536, 133]⟩
abbrev S_ : Shape := ⟨0, ![]⟩
abbrev S458752x1 : Shape := ⟨2, ![458752, 1]⟩
abbrev S458752x133 : Shape := ⟨2, ![458752, 133]⟩
abbrev S65536x931 : Shape := ⟨2, ![65536, 931]⟩
abbrev S2048x931 : Shape := ⟨2, ![2048, 931]⟩
abbrev S2048x128 : Shape := ⟨2, ![2048, 128]⟩

abbrev nBuf : Space → Nat
  | .hbm => 63
  | .vmem => 5
  | .smem => 0
  | _ => 0

abbrev bufTy : (tb : Table) → Fin (tcTables nBuf tb) → BufTy
  | .hbm, ⟨0, _⟩ => ⟨S65536x128, .f32⟩
  | .hbm, ⟨1, _⟩ => ⟨S2x458752, .i32⟩
  | .hbm, ⟨2, _⟩ => ⟨S458752, .i32⟩
  | .hbm, ⟨3, _⟩ => ⟨S65536, .i32⟩
  | .hbm, ⟨4, _⟩ => ⟨S931x128, .f32⟩
  | .hbm, ⟨5, _⟩ => ⟨S1x458752, .i32⟩
  | .hbm, ⟨6, _⟩ => ⟨S458752, .i32⟩
  | .hbm, ⟨7, _⟩ => ⟨S1x458752, .i32⟩
  | .hbm, ⟨8, _⟩ => ⟨S458752, .i32⟩
  | .hbm, ⟨9, _⟩ => ⟨S65536x1, .i32⟩
  | .hbm, ⟨10, _⟩ => ⟨S1x5, .i32⟩
  | .hbm, ⟨11, _⟩ => ⟨S65536x5, .i32⟩
  | .hbm, ⟨12, _⟩ => ⟨S65536x5, .i32⟩
  | .hbm, ⟨13, _⟩ => ⟨S65536x5, .i1⟩
  | .hbm, ⟨14, _⟩ => ⟨S65536x5, .f32⟩
  | .hbm, ⟨15, _⟩ => ⟨S65536x133, .f32⟩
  | .hbm, ⟨16, _⟩ => ⟨S_, .i32⟩
  | .hbm, ⟨17, _⟩ => ⟨S458752, .i32⟩
  | .hbm, ⟨18, _⟩ => ⟨S458752, .i32⟩
  | .hbm, ⟨19, _⟩ => ⟨S458752, .i32⟩
  | .hbm, ⟨20, _⟩ => ⟨S_, .i32⟩
  | .hbm, ⟨21, _⟩ => ⟨S458752, .i32⟩
  | .hbm, ⟨22, _⟩ => ⟨S458752, .i1⟩
  | .hbm, ⟨23, _⟩ => ⟨S_, .i32⟩
  | .hbm, ⟨24, _⟩ => ⟨S458752, .i32⟩
  | .hbm, ⟨25, _⟩ => ⟨S458752, .i32⟩
  | .hbm, ⟨26, _⟩ => ⟨S458752, .i32⟩
  | .hbm, ⟨27, _⟩ => ⟨S458752x1, .i32⟩
  | .hbm, ⟨28, _⟩ => ⟨S458752x133, .f32⟩
  | .hbm, ⟨29, _⟩ => ⟨S_, .f32⟩
  | .hbm, ⟨30, _⟩ => ⟨S458752x133, .f32⟩
  | .hbm, ⟨31, _⟩ => ⟨S458752x1, .i32⟩
  | .hbm, ⟨32, _⟩ => ⟨S458752x133, .f32⟩
  | .hbm, ⟨33, _⟩ => ⟨S_, .f32⟩
  | .hbm, ⟨34, _⟩ => ⟨S458752, .f32⟩
  | .hbm, ⟨35, _⟩ => ⟨S_, .f32⟩
  | .hbm, ⟨36, _⟩ => ⟨S458752, .f32⟩
  | .hbm, ⟨37, _⟩ => ⟨S458752x1, .i32⟩
  | .hbm, ⟨38, _⟩ => ⟨S458752, .f32⟩
  | .hbm, ⟨39, _⟩ => ⟨S_, .f32⟩
  | .hbm, ⟨40, _⟩ => ⟨S458752, .f32⟩
  | .hbm, ⟨41, _⟩ => ⟨S458752, .f32⟩
  | .hbm, ⟨42, _⟩ => ⟨S458752x1, .f32⟩
  | .hbm, ⟨43, _⟩ => ⟨S458752x133, .f32⟩
  | .hbm, ⟨44, _⟩ => ⟨S458752x133, .f32⟩
  | .hbm, ⟨45, _⟩ => ⟨S65536, .i32⟩
  | .hbm, ⟨46, _⟩ => ⟨S_, .i32⟩
  | .hbm, ⟨47, _⟩ => ⟨S65536, .i32⟩
  | .hbm, ⟨48, _⟩ => ⟨S65536, .i32⟩
  | .hbm, ⟨49, _⟩ => ⟨S_, .i32⟩
  | .hbm, ⟨50, _⟩ => ⟨S65536, .i32⟩
  | .hbm, ⟨51, _⟩ => ⟨S65536, .i32⟩
  | .hbm, ⟨52, _⟩ => ⟨S_, .i32⟩
  | .hbm, ⟨53, _⟩ => ⟨S65536, .i32⟩
  | .hbm, ⟨54, _⟩ => ⟨S65536, .i1⟩
  | .hbm, ⟨55, _⟩ => ⟨S_, .i32⟩
  | .hbm, ⟨56, _⟩ => ⟨S65536, .i32⟩
  | .hbm, ⟨57, _⟩ => ⟨S65536, .i32⟩
  | .hbm, ⟨58, _⟩ => ⟨S65536, .i32⟩
  | .hbm, ⟨59, _⟩ => ⟨S65536x1, .i32⟩
  | .hbm, ⟨60, _⟩ => ⟨S458752x133, .f32⟩
  | .hbm, ⟨61, _⟩ => ⟨S65536x931, .f32⟩
  | .hbm, ⟨62, _⟩ => ⟨S65536x128, .f32⟩
  | .local _ .vmem, ⟨0, _⟩ => ⟨S2048x931, .f32⟩
  | .local _ .vmem, ⟨1, _⟩ => ⟨S2048x931, .f32⟩
  | .local _ .vmem, ⟨2, _⟩ => ⟨S931x128, .f32⟩
  | .local _ .vmem, ⟨3, _⟩ => ⟨S2048x128, .f32⟩
  | .local _ .vmem, ⟨4, _⟩ => ⟨S2048x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x931 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S931x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x458752_S1x458752_0_0 : S2x458752.Slices ![0, 0] S1x458752
  shapeCasts_S1x458752_S458752 : S1x458752.ShapeCasts S458752
  slices_S2x458752_S1x458752_1_0 : S2x458752.Slices ![1, 0] S1x458752
  bcast_S65536_S65536x1_0 : S65536.BroadcastsInDim S65536x1 (![0] : Fin 1 → Fin S65536x1.rank)
  bcast_S65536x1_S65536x5_0_1 : S65536x1.BroadcastsInDim S65536x5 (![0, 1] : Fin 2 → Fin S65536x5.rank)
  bcast_S1x5_S65536x5_0_1 : S1x5.BroadcastsInDim S65536x5 (![0, 1] : Fin 2 → Fin S65536x5.rank)
  concatenates_S65536x128_S65536x5_S65536x133_d1 : Shape.Concatenates [S65536x128, S65536x5] S65536x133 1
  bcast_S_S458752 : S_.BroadcastsInDim S458752 (![] : Fin 0 → Fin S458752.rank)
  bcast_S458752_S458752x1_0 : S458752.BroadcastsInDim S458752x1 (![0] : Fin 1 → Fin S458752x1.rank)
  bcast_S_S458752x133 : S_.BroadcastsInDim S458752x133 (![] : Fin 0 → Fin S458752x133.rank)
  bcast_S458752x1_S458752x133_0_1 : S458752x1.BroadcastsInDim S458752x133 (![0, 1] : Fin 2 → Fin S458752x133.rank)
  bcast_S_S65536 : S_.BroadcastsInDim S65536 (![] : Fin 0 → Fin S65536.rank)
  shapeCasts_S458752x133_S65536x931 : S458752x133.ShapeCasts S65536x931
  inb_S2048x931_S2048x931_0_0 : ∀ a, (![0, 0] : Fin 2 → Nat) a + S2048x931.size a ≤ S2048x931.size a
  h_S2048x931 : 0 < S2048x931.numel
  shapeCasts_S2048x931_S2048x931 : S2048x931.ShapeCasts S2048x931
  bitsLt_bf16_f32 : FTy.bits .bf16 < FTy.bits .f32
  inb_S931x128_S931x128_0_0 : ∀ a, (![0, 0] : Fin 2 → Nat) a + S931x128.size a ≤ S931x128.size a
  h_S931x128 : 0 < S931x128.numel
  inb_S2048x128_S2048x128_0_0 : ∀ a, (![0, 0] : Fin 2 → Nat) a + S2048x128.size a ≤ S2048x128.size a
  h_S2048x128 : 0 < S2048x128.numel
  gather_S65536x133_S458752x1_S458752x133_1_0_n_n_0_1_1133_wf : GatherDims.WF S65536x133 S458752x1 S458752x133 [1] [0] [] [0] [] 1 ![1, 133]
  scatter_S458752x133_S458752x1_S458752x133_1_0_0_1_wf : ScatterDims.WF S458752x133 S458752x1 S458752x133 [1] [0] [0] 1
  scatter_S458752_S458752x1_S458752_n_0_0_1_wf : ScatterDims.WF S458752 S458752x1 S458752 [] [0] [0] 1
  scatter_S458752x133_S65536x1_S65536x133_1_0_0_1_wf : ScatterDims.WF S458752x133 S65536x1 S65536x133 [1] [0] [0] 1
  dot_S2048x931_S931x128_S2048x128_1_0_0_1_n_n_wf : DotDims.WF S2048x931 S931x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x931.size a ≤ S65536x931.size a
  hwx0_0 : ∀ i : grid0.Coords, EltTy.bits .f32 = 32 ∨ (Rect.block (s := S65536x931) S2048x931.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S931x128.size a ≤ S931x128.size a
  hwx0_1 : ∀ i : grid0.Coords, EltTy.bits .f32 = 32 ∨ (Rect.block (s := S931x128) S931x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .f32 = 32 ∨ (Rect.block (s := S65536x128) S2048x128.size (cc0_transform_2 i) (hinb0_2 i)).WholeWords (EltTy.packing .f32)

variable [Facts₀]

def gather_S65536x133_S458752x1_S458752x133_1_0_n_n_0_1_1133 : GatherDims S65536x133 S458752x1 S458752x133 where
  offsetDims := [1]
  collapsedSliceDims := [0]
  operandBatchingDims := []
  startIndicesBatchingDims := []
  startIndexMap := [0]
  indexVectorDim := 1
  sliceSizes := ![1, 133]
  wf := gather_S65536x133_S458752x1_S458752x133_1_0_n_n_0_1_1133_wf
def scatter_S458752x133_S458752x1_S458752x133_1_0_0_1 : ScatterDims S458752x133 S458752x1 S458752x133 where
  updateWindowDims := [1]
  insertedWindowDims := [0]
  scatterDimsToOperandDims := [0]
  indexVectorDim := 1
  wf := scatter_S458752x133_S458752x1_S458752x133_1_0_0_1_wf
def scatter_S458752_S458752x1_S458752_n_0_0_1 : ScatterDims S458752 S458752x1 S458752 where
  updateWindowDims := []
  insertedWindowDims := [0]
  scatterDimsToOperandDims := [0]
  indexVectorDim := 1
  wf := scatter_S458752_S458752x1_S458752_n_0_0_1_wf
def scatter_S458752x133_S65536x1_S65536x133_1_0_0_1 : ScatterDims S458752x133 S65536x1 S65536x133 where
  updateWindowDims := [1]
  insertedWindowDims := [0]
  scatterDimsToOperandDims := [0]
  indexVectorDim := 1
  wf := scatter_S458752x133_S65536x1_S65536x133_1_0_0_1_wf
def dot_S2048x931_S931x128_S2048x128_1_0_0_1_n_n : DotDims S2048x931 S931x128 S2048x128 where
  lhsContracting := [1]
  rhsContracting := [0]
  lhsNonContracting := [0]
  rhsNonContracting := [1]
  lhsBatch := []
  rhsBatch := []
  wf := dot_S2048x931_S931x128_S2048x128_1_0_0_1_n_n_wf

abbrev win0_0 : Pipeline.Window sig grid0 :=
  Pipeline.Window.ofSpec (Memref.whole main_v40) S2048x931.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S931x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x128 : Shape := ⟨2, ![65536, 128]⟩
abbrev S2x458752 : Shape := ⟨2, ![2, 458752]⟩
abbrev S458752 : Shape := ⟨1, ![458752]⟩
abbrev S65536 : Shape := ⟨1, ![65536]⟩
abbrev S931x128 : Shape := ⟨2, ![931, 128]⟩
abbrev S65536x1 : Shape := ⟨2, ![65536, 1]⟩
abbrev S1x5 : Shape := ⟨2, ![1, 5]⟩
abbrev S65536x5 : Shape := ⟨2, ![65536, 5]⟩
abbrev S65536x133 : Shape := ⟨2, ![65536, 133]⟩
abbrev S1x458752 : Shape := ⟨2, ![1, 458752]⟩
abbrev S_ : Shape := ⟨0, ![]⟩
abbrev S458752x1 : Shape := ⟨2, ![458752, 1]⟩
abbrev S458752x133 : Shape := ⟨2, ![458752, 133]⟩
abbrev S65536x931 : Shape := ⟨2, ![65536, 931]⟩

abbrev nBuf : Space → Nat
  | .hbm => 63
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S2x458752, .i32⟩
  | .hbm, ⟨2, _⟩ => ⟨S458752, .i32⟩
  | .hbm, ⟨3, _⟩ => ⟨S65536, .i32⟩
  | .hbm, ⟨4, _⟩ => ⟨S931x128, .f32⟩
  | .hbm, ⟨5, _⟩ => ⟨S65536x1, .i32⟩
  | .hbm, ⟨6, _⟩ => ⟨S1x5, .i32⟩
  | .hbm, ⟨7, _⟩ => ⟨S65536x5, .i32⟩
  | .hbm, ⟨8, _⟩ => ⟨S65536x5, .i32⟩
  | .hbm, ⟨9, _⟩ => ⟨S65536x5, .i1⟩
  | .hbm, ⟨10, _⟩ => ⟨S65536x5, .f32⟩
  | .hbm, ⟨11, _⟩ => ⟨S65536x133, .f32⟩
  | .hbm, ⟨12, _⟩ => ⟨S1x458752, .i32⟩
  | .hbm, ⟨13, _⟩ => ⟨S458752, .i32⟩
  | .hbm, ⟨14, _⟩ => ⟨S1x458752, .i32⟩
  | .hbm, ⟨15, _⟩ => ⟨S458752, .i32⟩
  | .hbm, ⟨16, _⟩ => ⟨S_, .i32⟩
  | .hbm, ⟨17, _⟩ => ⟨S458752, .i32⟩
  | .hbm, ⟨18, _⟩ => ⟨S458752, .i32⟩
  | .hbm, ⟨19, _⟩ => ⟨S458752, .i32⟩
  | .hbm, ⟨20, _⟩ => ⟨S_, .i32⟩
  | .hbm, ⟨21, _⟩ => ⟨S458752, .i32⟩
  | .hbm, ⟨22, _⟩ => ⟨S458752, .i1⟩
  | .hbm, ⟨23, _⟩ => ⟨S_, .i32⟩
  | .hbm, ⟨24, _⟩ => ⟨S458752, .i32⟩
  | .hbm, ⟨25, _⟩ => ⟨S458752, .i32⟩
  | .hbm, ⟨26, _⟩ => ⟨S458752, .i32⟩
  | .hbm, ⟨27, _⟩ => ⟨S458752x1, .i32⟩
  | .hbm, ⟨28, _⟩ => ⟨S458752x133, .f32⟩
  | .hbm, ⟨29, _⟩ => ⟨S_, .f32⟩
  | .hbm, ⟨30, _⟩ => ⟨S458752x133, .f32⟩
  | .hbm, ⟨31, _⟩ => ⟨S458752x1, .i32⟩
  | .hbm, ⟨32, _⟩ => ⟨S458752x133, .f32⟩
  | .hbm, ⟨33, _⟩ => ⟨S_, .f32⟩
  | .hbm, ⟨34, _⟩ => ⟨S458752, .f32⟩
  | .hbm, ⟨35, _⟩ => ⟨S_, .f32⟩
  | .hbm, ⟨36, _⟩ => ⟨S458752, .f32⟩
  | .hbm, ⟨37, _⟩ => ⟨S458752x1, .i32⟩
  | .hbm, ⟨38, _⟩ => ⟨S458752, .f32⟩
  | .hbm, ⟨39, _⟩ => ⟨S_, .f32⟩
  | .hbm, ⟨40, _⟩ => ⟨S458752, .f32⟩
  | .hbm, ⟨41, _⟩ => ⟨S458752, .f32⟩
  | .hbm, ⟨42, _⟩ => ⟨S458752x1, .f32⟩
  | .hbm, ⟨43, _⟩ => ⟨S458752x133, .f32⟩
  | .hbm, ⟨44, _⟩ => ⟨S458752x133, .f32⟩
  | .hbm, ⟨45, _⟩ => ⟨S65536, .i32⟩
  | .hbm, ⟨46, _⟩ => ⟨S_, .i32⟩
  | .hbm, ⟨47, _⟩ => ⟨S65536, .i32⟩
  | .hbm, ⟨48, _⟩ => ⟨S65536, .i32⟩
  | .hbm, ⟨49, _⟩ => ⟨S_, .i32⟩
  | .hbm, ⟨50, _⟩ => ⟨S65536, .i32⟩
  | .hbm, ⟨51, _⟩ => ⟨S65536, .i32⟩
  | .hbm, ⟨52, _⟩ => ⟨S_, .i32⟩
  | .hbm, ⟨53, _⟩ => ⟨S65536, .i32⟩
  | .hbm, ⟨54, _⟩ => ⟨S65536, .i1⟩
  | .hbm, ⟨55, _⟩ => ⟨S_, .i32⟩
  | .hbm, ⟨56, _⟩ => ⟨S65536, .i32⟩
  | .hbm, ⟨57, _⟩ => ⟨S65536, .i32⟩
  | .hbm, ⟨58, _⟩ => ⟨S65536, .i32⟩
  | .hbm, ⟨59, _⟩ => ⟨S65536x1, .i32⟩
  | .hbm, ⟨60, _⟩ => ⟨S458752x133, .f32⟩
  | .hbm, ⟨61, _⟩ => ⟨S65536x931, .f32⟩
  | .hbm, ⟨62, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  bcast_S65536x1_S65536x5_0_1 : S65536x1.BroadcastsInDim S65536x5 (![0, 1] : Fin 2 → Fin S65536x5.rank)
  bcast_S1x5_S65536x5_0_1 : S1x5.BroadcastsInDim S65536x5 (![0, 1] : Fin 2 → Fin S65536x5.rank)
  concatenates_S65536x128_S65536x5_S65536x133_d1 : Shape.Concatenates [S65536x128, S65536x5] S65536x133 1
  slices_S2x458752_S1x458752_0_0 : S2x458752.Slices ![0, 0] S1x458752
  shapeCasts_S1x458752_S458752 : S1x458752.ShapeCasts S458752
  slices_S2x458752_S1x458752_1_0 : S2x458752.Slices ![1, 0] S1x458752
  bcast_S_S458752 : S_.BroadcastsInDim S458752 (![] : Fin 0 → Fin S458752.rank)
  bcast_S458752_S458752x1_0 : S458752.BroadcastsInDim S458752x1 (![0] : Fin 1 → Fin S458752x1.rank)
  bcast_S_S458752x133 : S_.BroadcastsInDim S458752x133 (![] : Fin 0 → Fin S458752x133.rank)
  bcast_S458752x1_S458752x133_0_1 : S458752x1.BroadcastsInDim S458752x133 (![0, 1] : Fin 2 → Fin S458752x133.rank)
  bcast_S_S65536 : S_.BroadcastsInDim S65536 (![] : Fin 0 → Fin S65536.rank)
  shapeCasts_S458752x133_S65536x931 : S458752x133.ShapeCasts S65536x931
  gather_S65536x133_S458752x1_S458752x133_1_0_n_n_0_1_1133_wf : GatherDims.WF S65536x133 S458752x1 S458752x133 [1] [0] [] [0] [] 1 ![1, 133]
  scatter_S458752x133_S458752x1_S458752x133_1_0_0_1_wf : ScatterDims.WF S458752x133 S458752x1 S458752x133 [1] [0] [0] 1
  scatter_S458752_S458752x1_S458752_n_0_0_1_wf : ScatterDims.WF S458752 S458752x1 S458752 [] [0] [0] 1
  scatter_S458752x133_S65536x1_S65536x133_1_0_0_1_wf : ScatterDims.WF S458752x133 S65536x1 S65536x133 [1] [0] [0] 1
  dot_S65536x931_S931x128_S65536x128_1_0_0_1_n_n_wf : DotDims.WF S65536x931 S931x128 S65536x128 [1] [0] [0] [1] [] []

variable [Facts₀]

def gather_S65536x133_S458752x1_S458752x133_1_0_n_n_0_1_1133 : GatherDims S65536x133 S458752x1 S458752x133 where
  offsetDims := [1]
  collapsedSliceDims := [0]
  operandBatchingDims := []
  startIndicesBatchingDims := []
  startIndexMap := [0]
  indexVectorDim := 1
  sliceSizes := ![1, 133]
  wf := gather_S65536x133_S458752x1_S458752x133_1_0_n_n_0_1_1133_wf
def scatter_S458752x133_S458752x1_S458752x133_1_0_0_1 : ScatterDims S458752x133 S458752x1 S458752x133 where
  updateWindowDims := [1]
  insertedWindowDims := [0]
  scatterDimsToOperandDims := [0]
  indexVectorDim := 1
  wf := scatter_S458752x133_S458752x1_S458752x133_1_0_0_1_wf
def scatter_S458752_S458752x1_S458752_n_0_0_1 : ScatterDims S458752 S458752x1 S458752 where
  updateWindowDims := []
  insertedWindowDims := [0]
  scatterDimsToOperandDims := [0]
  indexVectorDim := 1
  wf := scatter_S458752_S458752x1_S458752_n_0_0_1_wf
def scatter_S458752x133_S65536x1_S65536x133_1_0_0_1 : ScatterDims S458752x133 S65536x1 S65536x133 where
  updateWindowDims := [1]
  insertedWindowDims := [0]
  scatterDimsToOperandDims := [0]
  indexVectorDim := 1
  wf := scatter_S458752x133_S65536x1_S65536x133_1_0_0_1_wf
def dot_S65536x931_S931x128_S65536x128_1_0_0_1_n_n : DotDims S65536x931 S931x128 S65536x128 where
  lhsContracting := [1]
  rhsContracting := [0]
  lhsNonContracting := [0]
  rhsNonContracting := [1]
  lhsBatch := []
  rhsBatch := []
  wf := dot_S65536x931_S931x128_S65536x128_1_0_0_1_n_n_wf

class Facts : Prop extends Facts₀ where

variable [Facts]
-- ==== Proof.Product.lean ====
/-
  The product of an array of rows with an array of weights, on the extended reals.

  The rows are [65536, 931] (one row per node: its seven neighbourhood means of 133 features each, laid side by side),
  the weights [931, 128]. Entry (p, q) of the product is the sum over k < 931 of rows (p, k) · weights (k, q).
  Both programs compute this array: one in blocks of 2048 rows, one in a single product.
-/
import Idealize.ShloMosaic.PureOps.Ideal
import Idealize.ShloMosaic.Lib.ValueIdx

noncomputable section

open scoped BigOperators

namespace Cert.Product

open Idealize.ShloMosaic Idealize.ShloMosaic.ValueIdx

/-- The product of the rows with the weights: entry i = (p, q) is the sum over k of rows (p, k) · weights (k, q). -/
def rowsTimes (rows : FVec Ideal ⟨2, ![65536, 931]⟩ .f32) (weights : FVec Ideal ⟨2, ![931, 128]⟩ .f32) :
    FVec Ideal ⟨2, ![65536, 128]⟩ .f32 :=
  fun i => ∑ k : Fin 931, rows (ix2 (i 0) k) * weights (ix2 k (i 1))

/-- The product read at entry (p, q). -/
theorem rowsTimes_apply (rows : FVec Ideal ⟨2, ![65536, 931]⟩ .f32) (weights : FVec Ideal ⟨2, ![931, 128]⟩ .f32)
    (p : Fin 65536) (q : Fin 128) :
    rowsTimes rows weights (ix2 p q) = ∑ k : Fin 931, rows (ix2 p k) * weights (ix2 k q) := rfl

end Cert.Product

end
-- ==== Proof.Rows.lean ====
/-
  The rows the kernel's region finds are the reference's rows.

  Before its one region the kernel's program applies to the arguments the same host operations, one for one, as the
  reference applies before its product (it only takes the two slices of the edge array before, and not after, the node
  types' indicator): the node features joined with the indicator of the node's type; those rows gathered along the edges'
  source nodes; summed, and counted, per pair (target node, edge type); each sum divided by its count or by one; the
  node's own row written into its last slot; the result re-laid as [65536, 931], seven slots of 133 features per node.
  So the array the region finds as its first operand is the reference's rows stage of the same arguments: both are one
  composition of the same operations, and nothing of it is opened here.
-/
import proofs.«144731_j47038481825892_1_alg».proof.Proof.Gen.KernelIdeal.Frame
import proofs.«144731_j47038481825892_1_alg».proof.Proof.Gen.ReferenceIdeal.Read
import Idealize.ShloMosaic.Lib.StableHlo.Run

noncomputable section

namespace Cert.KernelIdeal.Bridge

open Cert.KernelIdeal Cert.KernelIdeal.Gen Idealize.ShloMosaic Idealize.ShloMosaic.TcCoe Idealize.SL.Sem

variable (m : (ℓ : Loc nD τ sig) → Buf (Elt Ideal) ℓ)

set_option maxHeartbeats 4000000 in
set_option maxRecDepth 8192 in
/-- The region's first operand, as the region finds it, is the reference's rows stage of the kernel's arguments. -/
theorem rows_found (c : Dev nD) :
    V m c main_v40 = Cert.ReferenceIdeal.Read.val_main_v40 (F := Ideal) (m ((c : Thread nD τ).loc main_arg0))
      (m ((c : Thread nD τ).loc main_arg1)) (m ((c : Thread nD τ).loc main_arg2)) (m ((c : Thread nD τ).loc main_arg3)) := by
  dsimp only [V]
  rw [List.flatten_cons, List.flatten_cons, List.flatten_cons, List.flatten_nil, List.append_nil,
    StableHlo.after_append, StableHlo.after_append]
  after_results_simp
  rfl

end Cert.KernelIdeal.Bridge

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.BlockProduct.lean ====
/-
  What the kernel body stores, read at one entry.

  The body loads a block of 2048 rows [2048, 931] and the whole weights [931, 128], changes both to bf16 (on the extended
  reals a change of format is the identity), and multiplies them into a zero accumulator. Entry (r, q) of what it stores
  is therefore the sum over k < 931 of block (r, k) · weights (k, q).
-/
import proofs.«144731_j47038481825892_1_alg».proof.Proof.Gen.KernelIdeal.Skeleton
import proofs.«144731_j47038481825892_1_alg».proof.Proof.LibPlainDot
import proofs.«144731_j47038481825892_1_alg».proof.Proof.Product
import Idealize.ShloMosaic.Lib.Pipeline.Value
import Idealize.ShloMosaic.Lib.ValueIdx

noncomputable section

open scoped BigOperators

namespace Cert.KernelIdeal.Bridge

open Cert.KernelIdeal Cert.KernelIdeal.Gen Idealize.ShloMosaic Idealize.ShloMosaic.ValueIdx

/-- The stored block at entry (r, q): the block's row r against the weights' column q. -/
theorem stored_apply_ix (block : Vec Ideal S2048x931 .f32) (weights : Vec Ideal S931x128 .f32) (r : Fin 2048) (q : Fin 128) :
    k0_pay1 (F := Ideal) block weights (ix2 r q) = ∑ k : Fin 931, block (ix2 r k) * weights (ix2 k q) := by
  unfold k0_pay1
  rw [shapeCast_self]
  exact Cert.LibPlainDot.matmul_zero_apply (M := 2048) (K := 931) (N := 128) none
    (truncf .bf16 (block : FVec Ideal S2048x931 .f32) bitsLt_bf16_f32) (truncf .bf16 (weights : FVec Ideal S931x128 .f32) bitsLt_bf16_f32) r q

/-- The same at any index j of the stored block, by its two coordinates. -/
theorem stored_apply (block : Vec Ideal S2048x931 .f32) (weights : Vec Ideal S931x128 .f32) (j : S2048x128.Idx) :
    k0_pay1 (F := Ideal) block weights j = ∑ k : Fin 931, block (ix2 (j 0) k) * weights (ix2 k (j 1)) := by
  obtain ⟨r, q, rfl⟩ : ∃ (r : Fin 2048) (q : Fin 128), j = ix2 r q := ⟨j 0, j 1, eq_ix2 j⟩
  exact stored_apply_ix block weights r q

/-- A stored block against the whole product: if the loaded block's row `j 0` is the rows' row `i 0`, and the loaded
    weights' column `j 1` is the weights' column `i 1`, then the stored entry j is the product's entry i. -/
theorem stored_eq_rowsTimes (rows : FVec Ideal ⟨2, ![65536, 931]⟩ .f32) (weights : FVec Ideal ⟨2, ![931, 128]⟩ .f32)
    (block : Vec Ideal S2048x931 .f32) (wblock : Vec Ideal S931x128 .f32) (j : S2048x128.Idx) (i : S65536x128.Idx)
    (hrows : ∀ k : Fin 931, block (ix2 (j 0) k) = rows (ix2 (i 0) k))
    (hweights : ∀ k : Fin 931, wblock (ix2 k (j 1)) = weights (ix2 k (i 1))) :
    k0_pay1 (F := Ideal) block wblock j = Cert.Product.rowsTimes rows weights i := by
  refine (stored_apply block wblock j).trans ?_
  exact Finset.sum_congr rfl fun k _ => by rw [hrows k, hweights k]

end Cert.KernelIdeal.Bridge

end
-- ==== Proof.KernelValue.lean ====
/-
  The kernel's result array is the product of the rows its region finds with the weights.

  The grid has 32 points. Point t is handed rows 2048·b … 2048·b + 2047 of the rows array (b its row-block index, the same
  for the result) and the whole weights, and what it stores, entry (r, q) = the sum over k of block (r, k) · weights (k, q),
  is written back as rows 2048·b … 2048·b + 2047 of the result. So each point writes its block of ONE array, the product of
  the rows with the weights; the 32 row blocks cover the result's 65536 rows (row p lies in block p / 2048), so the result
  array ends holding that product.
-/
import proofs.«144731_j47038481825892_1_alg».proof.Proof.Gen.KernelIdeal.Value
import proofs.«144731_j47038481825892_1_alg».proof.Proof.BlockProduct
import proofs.«144731_j47038481825892_1_alg».proof.Proof.Product

noncomputable section

namespace Cert.KernelIdeal.Bridge

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps, decided over the 32 points: the rows' block and the result's block have one row-block index;
    every other block index is 0 (the rows' block spans all 931 columns, the weights are one block, the result's block
    spans all 128 columns). -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Each of the result's 32 row blocks is some point's. -/
theorem block_onto : ∀ b : Fin 32, ∃ t : Fin cfg0.N, win0_2.index t = ![b.val, 0] :=
  (by decide +kernel : ∀ b : Fin 32, ∃ t : Fin grid0.N, win0_2.index t = ![b.val, 0])

/-- Entry (r, k) of point t's block of an array A of rows is A's entry (p, k), where p = 2048 · (the block's row-block
    index) + r; the block spans all 931 columns. Stated for any array A, so that what the region's first operand holds is
    never looked into. -/
theorem rows_block_read (t : Fin cfg0.N) (A : (⟨S65536x931, .f32⟩ : BufTy).Contents (Elt Ideal)) (r : Fin 2048) (k : Fin 931)
    (p : Fin 65536) (hp : p.val = win0_0.index t (0 : Fin 2) * 2048 + r.val) (hcol : win0_0.index t (1 : Fin 2) = 0) :
    ((cfg0.win 0).blk t).view.read (Elt Ideal) A (ix2 r k) = A (ix2 p k) := by
  rw [View.read_apply]
  show A (((cfg0.win 0).blk t).view.emb (ix2 r k)) = A (ix2 p k)
  refine congrArg A (funext fun a => Fin.ext ?_)
  match a with
  | ⟨0, _⟩ => show win0_0.index t (0 : Fin 2) * 2048 + 1 * r.val = p.val; omega
  | ⟨1, _⟩ => show win0_0.index t (1 : Fin 2) * 931 + 1 * k.val = k.val; rw [hcol]; omega

/-- The weights are one block: entry (k, q) of point t's block of an array A of weights is A's entry (k, q). -/
theorem weights_block_read (t : Fin cfg0.N) (A : (⟨S931x128, .f32⟩ : BufTy).Contents (Elt Ideal)) (k : Fin 931) (q q' : Fin 128)
    (hq : q'.val = q.val) (hrow : win0_1.index t (0 : Fin 2) = 0) (hcol : win0_1.index t (1 : Fin 2) = 0) :
    ((cfg0.win 1).blk t).view.read (Elt Ideal) A (ix2 k q) = A (ix2 k q') := by
  rw [View.read_apply]
  show A (((cfg0.win 1).blk t).view.emb (ix2 k q)) = A (ix2 k q')
  refine congrArg A (funext fun a => Fin.ext ?_)
  match a with
  | ⟨0, _⟩ => show win0_1.index t (0 : Fin 2) * 931 + 1 * k.val = k.val; rw [hrow]; omega
  | ⟨1, _⟩ => show win0_1.index t (1 : Fin 2) * 128 + 1 * q.val = q'.val; rw [hcol]; omega

/-- Reading point t's block of an array G of results at the block's index j reads G where the block puts j. Stated for
    any array G, so that nothing of the array read is looked into. -/
theorem result_block_read (t : Fin cfg0.N) (G : (⟨S65536x128, .f32⟩ : BufTy).Contents (Elt Ideal))
    (j : ((cfg0.win 2).xblock (grid0.coords t)).Idx) :
    ((cfg0.win 2).blk t).view.read (Elt Ideal) G j = G (((cfg0.win 2).blk t).view.emb j) := rfl

/-- WHAT POINT t WRITES BACK is its block of the product of the rows with the weights. -/
theorem written_block (c : Dev nD) (t : Fin cfg0.N) :
    (dats m 0 c).flushed 2 t
      = ((cfg0.win 2).blk t).view.read (Elt Ideal) (Cert.Product.rowsTimes (V m c main_v40) (V m c main_arg4)) := by
  show (cfg0.win 2).cut (grid0.coords t) ((dats m 0 c).after 2 t) = _
  rw [after0_2]
  unfold out0_2
  rw [View.canon_unit_zero offsets_zero]
  simp only [View.ld_unit_zero (S := S2048x931) offsets_zero, View.ld_unit_zero (S := S931x128) offsets_zero]
  obtain ⟨e0, e1, e2, e3, e4⟩ := block_indices t
  funext j
  refine Eq.trans ?_ (result_block_read t (Cert.Product.rowsTimes (V m c main_v40) (V m c main_arg4)) j).symm
  -- the write-back moves the whole stored block: its entry j, as an index of the stored block
  show k0_pay1 (F := Ideal) (iblk m c 0 t) (iblk m c 1 t) ((cfg0.win 2).xinj (grid0.coords t) j)
    = Cert.Product.rowsTimes (V m c main_v40) (V m c main_arg4) (((cfg0.win 2).blk t).view.emb j)
  -- the result entry's row is 2048 · (row-block index) + j 0, its column j 1
  have hrow : ((((cfg0.win 2).blk t).view.emb j) 0).val
      = win0_0.index t (0 : Fin 2) * 2048 + (((cfg0.win 2).xinj (grid0.coords t) j) 0).val := by
    show win0_2.index t (0 : Fin 2) * 2048 + 1 * (j 0).val = win0_0.index t (0 : Fin 2) * 2048 + (j 0).val
    rw [e0]; omega
  have hcol : ((((cfg0.win 2).blk t).view.emb j) 1).val = (((cfg0.win 2).xinj (grid0.coords t) j) 1).val := by
    show win0_2.index t (1 : Fin 2) * 128 + 1 * (j 1).val = (j 1).val
    rw [e4]; omega
  exact stored_eq_rowsTimes (V m c main_v40) (V m c main_arg4) (iblk m c 0 t) (iblk m c 1 t)
    ((cfg0.win 2).xinj (grid0.coords t) j) (((cfg0.win 2).blk t).view.emb j)
    (fun k => rows_block_read t (V m c main_v40) (((cfg0.win 2).xinj (grid0.coords t) j) 0) k
      ((((cfg0.win 2).blk t).view.emb j) 0) hrow e1)
    (fun k => weights_block_read t (V m c main_arg4) k (((cfg0.win 2).xinj (grid0.coords t) j) 1)
      ((((cfg0.win 2).blk t).view.emb j) 1) hcol e2 e3)

/-- An entry of the result is in point t's block iff each coordinate is in the block's range on its axis. -/
theorem mem_block (t : Fin cfg0.N) (i : S65536x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v41).slice (win0_2.rect t)).set ↔ _
  rw [View.set_slice_whole, Rect.mem_set_unit]
  exact Iff.rfl

/-- Every entry (p, q) of the result is in the block of the point whose row-block index is p / 2048. -/
theorem covered (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  obtain ⟨t, ht⟩ := block_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- THE RESULT ARRAY after the run is the product of the rows the region finds with the weights it finds. -/
theorem result_array (c : Dev nD) :
    (dats m 0 c).arrAt 2 cfg0.N = Cert.Product.rowsTimes (V m c main_v40) (V m c main_arg4) :=
  (dats m 0 c).arrAt_eq_of_cover 2 (Cert.Product.rowsTimes (V m c main_v40) (V m c main_arg4))
    (fun t _ => written_block m c t) covered

/-- The kernel's run: the result array at that product, the arguments unchanged. -/
theorem run : θ_run defs (onTc (τ := τ) (main (F := Ideal))) ⟨m, fun _ => 0, ρ⟩ fun r => ∀ c : Dev nD,
      r.2.mem ((c : Thread nD τ).loc main_v41) = Cert.Product.rowsTimes (V m c main_v40) (V m c main_arg4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_array m c), (h c).2⟩) (run_blocks m ρ)

end Cert.KernelIdeal.Bridge

end
-- ==== Proof.RefProduct.lean ====
/-
  The reference's result is the product of its rows with the weights.

  The reference's last operation is one `dot_general` of the [65536, 931] rows (the stage before it) with the weights,
  contracting the rows' second axis against the weights' first. On the extended reals its entry (p, q) is the sum over
  k < 931 of rows (p, k) · weights (k, q): the generated reading of that operation, with its two index functions
  identified as (p, k) and (k, q).
-/
import proofs.«144731_j47038481825892_1_alg».proof.Proof.Gen.ReferenceIdeal.Read
import proofs.«144731_j47038481825892_1_alg».proof.Proof.Product

noncomputable section

open scoped BigOperators

namespace Cert.ReferenceIdeal.Bridge

open Cert.ReferenceIdeal Cert.ReferenceIdeal.Read Idealize.ShloMosaic Idealize.ShloMosaic.ValueIdx

/-- At result entry i and contraction coordinate k the rows are read at (i 0, k) -/
theorem rows_index (i : S65536x128.Idx) (k : Fin 931) : lidx_main_v41 i k = ix2 (i 0) k :=
  funext fun a => Fin.ext (by match a with | ⟨0, _⟩ => rfl | ⟨1, _⟩ => rfl)

/-- and the weights at (k, i 1). -/
theorem weights_index (i : S65536x128.Idx) (k : Fin 931) : ridx_main_v41 i k = ix2 k (i 1) :=
  funext fun a => Fin.ext (by match a with | ⟨0, _⟩ => rfl | ⟨1, _⟩ => rfl)

/-- The reference's result is the product of the rows stage with the weights. -/
theorem result_eq (x0 : (⟨S65536x128, .f32⟩ : BufTy).Contents (Elt Ideal)) (x1 : (⟨S2x458752, .i32⟩ : BufTy).Contents (Elt Ideal))
    (x2 : (⟨S458752, .i32⟩ : BufTy).Contents (Elt Ideal)) (x3 : (⟨S65536, .i32⟩ : BufTy).Contents (Elt Ideal))
    (x4 : (⟨S931x128, .f32⟩ : BufTy).Contents (Elt Ideal)) :
    val_main_v41 (F := Ideal) x0 x1 x2 x3 x4 = Cert.Product.rowsTimes (val_main_v40 (F := Ideal) x0 x1 x2 x3) x4 := by
  funext i
  rw [val_main_v41_apply]
  unfold Cert.Product.rowsTimes
  exact Finset.sum_congr rfl fun k _ => by rw [rows_index, weights_index]; rfl

end Cert.ReferenceIdeal.Bridge

end
-- ==== Proof.lean ====
/-
  The kernel against its reference: a graph layer's linear transform, `rows · weights`, with the product done in blocks of
  2048 rows on the one side and in one piece on the other.

  Both programs first build, by the same host operations on the same arguments, the array of rows [65536, 931]: per node,
  for each of seven edge types, the mean over the node's incoming edges of that type of the source nodes' 133 features
  (128 input features and the indicator of the node's type; a sum divided by the count of edges, or by one where there is
  none), the last slot overwritten with the node's own features. Nothing of that construction is opened: it is one
  function of the arguments, the same on both sides (Rows.lean).

  The reference then takes the product of the rows with the weights [931, 128] in one `dot_general`: entry (p, q) is the sum
  over k < 931 of rows (p, k) · weights (k, q) (RefProduct.lean). The kernel runs a grid of 32 points; point t loads rows
  2048·t … 2048·t + 2047 and the whole weights, rounds both to bf16 — the identity on the extended reals —, multiplies them
  into a zero accumulator and stores the block as rows 2048·t … 2048·t + 2047 of the result (BlockProduct.lean); the blocks
  cover the result, so it ends holding the same sums (KernelValue.lean). The two results are one array, with no appeal to
  finiteness of the inputs: the same products are summed over the same index set.

  The three frames are the generated ones (the reference's is its generated run with the result dropped); the idealized
  kernel is the kernel's own text read on the extended reals, so nothing is owed for the idealization.
-/
import proofs.«144731_j47038481825892_1_alg».proof.Defs
import proofs.«144731_j47038481825892_1_alg».proof.Proof.Gen.Kernel
import proofs.«144731_j47038481825892_1_alg».proof.Proof.Gen.Kernel.Skeleton
import proofs.«144731_j47038481825892_1_alg».proof.Proof.Gen.Kernel.Launch
import proofs.«144731_j47038481825892_1_alg».proof.Proof.Gen.Kernel.Points
import proofs.«144731_j47038481825892_1_alg».proof.Proof.Gen.Kernel.Frame
import proofs.«144731_j47038481825892_1_alg».proof.Proof.Gen.KernelIdeal
import proofs.«144731_j47038481825892_1_alg».proof.Proof.Gen.KernelIdeal.Skeleton
import proofs.«144731_j47038481825892_1_alg».proof.Proof.Gen.KernelIdeal.Launch
import proofs.«144731_j47038481825892_1_alg».proof.Proof.Gen.KernelIdeal.Points
import proofs.«144731_j47038481825892_1_alg».proof.Proof.Gen.KernelIdeal.Frame
import proofs.«144731_j47038481825892_1_alg».proof.Proof.Gen.ReferenceIdeal
import proofs.«144731_j47038481825892_1_alg».proof.Proof.Gen.Pre_finite_inputs
import proofs.«144731_j47038481825892_1_alg».proof.Proof.Gen.KernelIdeal.Value
import proofs.«144731_j47038481825892_1_alg».proof.Proof.Gen.ReferenceIdeal.Run
import proofs.«144731_j47038481825892_1_alg».proof.Proof.Gen.ReferenceIdeal.Read
import proofs.«144731_j47038481825892_1_alg».proof.Proof.Product
import proofs.«144731_j47038481825892_1_alg».proof.Proof.Rows
import proofs.«144731_j47038481825892_1_alg».proof.Proof.KernelValue
import proofs.«144731_j47038481825892_1_alg».proof.Proof.RefProduct
import Idealize.ShloMosaic.Adequacy
import Idealize.ShloMosaic.Init

noncomputable section

namespace Cert.Proof

open Idealize.ShloMosaic Idealize.ShloMosaic.TcCoe Idealize.SL.Sem

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-! ## The common result -/

section

open Cert.KernelIdeal

variable (m : (ℓ : Loc nD τ sig) → Buf (Elt Ideal) ℓ) (ρ : Dev nD → PrngReg)

/-- The array both programs end with: the rows built from the arguments, times the weights. -/
abbrev result (c : Dev nD) : Buf (Elt Ideal) ((c : Thread nD τ).loc main_v41) :=
  Cert.Product.rowsTimes
    (Cert.ReferenceIdeal.Read.val_main_v40 (F := Ideal) (m ((c : Thread nD τ).loc main_arg0)) (m ((c : Thread nD τ).loc main_arg1))
      (m ((c : Thread nD τ).loc main_arg2)) (m ((c : Thread nD τ).loc main_arg3)))
    (m ((c : Thread nD τ).loc main_arg4))

/-- The kernel's run with what its region finds named: the rows are the rows stage of the arguments, the weights the
    weights argument as launched. -/
theorem kernel_run : θ_run defs (onTc (τ := τ) (main (F := Ideal))) ⟨m, fun _ => 0, ρ⟩ fun r => ∀ c : Dev nD,
      r.2.mem ((c : Thread nD τ).loc main_v41) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h c).1.trans (congrArg₂ Cert.Product.rowsTimes (Cert.KernelIdeal.Bridge.rows_found m c)
      (Cert.KernelIdeal.Gen.V_main_arg4 m c)), (h c).2⟩)
    (Cert.KernelIdeal.Bridge.run m ρ)

end

/-- On the extended reals the kernel's result array and the reference's are the same product of the same rows with the
    same weights, for arguments that agree. -/
theorem algebraic : Cert.algebraic_KernelIdeal_ReferenceIdeal := by
  intro m ρ m' ρ' _ hagree
  refine ⟨fun c => result m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.Bridge.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
